-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64 .f32) (main_arg6 : FVec F S64x64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S100000x64 .f32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S1200000x64 : Shape := ⟨2, ![1200000, 64]⟩
abbrev S128x64 : Shape := ⟨2, ![128, 64]⟩
abbrev S1x64 : Shape := ⟨2, ![1, 64]⟩
abbrev S2000x64 : Shape := ⟨2, ![2000, 64]⟩
abbrev S2000x1 : Shape := ⟨2, ![2000, 1]⟩
abbrev S2000x128 : Shape := ⟨2, ![2000, 128]⟩

abbrev nBuf : Space → Nat
  | .hbm => 57
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S1200000x1, .f32⟩
  | .hbm, ⟨15, _⟩ => ⟨S_, .f32⟩
  | .hbm, ⟨16, _⟩ => ⟨S100000x1, .f32⟩
  | .hbm, ⟨17, _⟩ => ⟨S1200000x1, .i32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S128x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S128x64, .f32⟩
  | .hbm, ⟨55, _⟩ => ⟨S1x64, .f32⟩
  | .hbm, ⟨56, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S2000x64, .f32⟩
  | .local _ .vmem, ⟨7, _⟩ => ⟨S2000x64, .f32⟩
  | .local _ .vmem, ⟨8, _⟩ => ⟨S128x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000x1 : S_.BroadcastsInDim S1200000x1 (![] : Fin 0 → Fin S1200000x1.rank)
  bcast_S_S100000x1 : S_.BroadcastsInDim S100000x1 (![] : Fin 0 → Fin S100000x1.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S_S100000x64 : S_.BroadcastsInDim S100000x64 (![] : Fin 0 → Fin S100000x64.rank)
  concatenates_S64x64_S64x64_S128x64_d0 : Shape.Concatenates [S64x64, S64x64] S128x64 0
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  concatenates_S2000x64_S2000x64_S2000x128_d1 : Shape.Concatenates [S2000x64, S2000x64] S2000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  natLt_1_32 : 1 < 32
  scatter_S100000x1_S1200000x1_S1200000x1_1_0_0_1_wf : ScatterDims.WF S100000x1 S1200000x1 S1200000x1 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S_, .f32⟩
  | .hbm, ⟨27, _⟩ => ⟨S1200000x1, .f32⟩
  | .hbm, ⟨28, _⟩ => ⟨S_, .f32⟩
  | .hbm, ⟨29, _⟩ => ⟨S100000x1, .f32⟩
  | .hbm, ⟨30, _⟩ => ⟨S1200000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x1200000, .i32⟩
  | .hbm, ⟨55, _⟩ => ⟨S1200000, .i32⟩
  | .hbm, ⟨56, _⟩ => ⟨S1x1200000, .i32⟩
  | .hbm, ⟨57, _⟩ => ⟨S1200000, .i32⟩
  | .hbm, ⟨58, _⟩ => ⟨S_, .i32⟩
  | .hbm, ⟨59, _⟩ => ⟨S1200000, .i32⟩
  | .hbm, ⟨60, _⟩ => ⟨S1200000, .i1⟩
  | .hbm, ⟨61, _⟩ => ⟨S_, .i32⟩
  | .hbm, ⟨62, _⟩ => ⟨S1200000, .i32⟩
  | .hbm, ⟨63, _⟩ => ⟨S1200000, .i32⟩
  | .hbm, ⟨64, _⟩ => ⟨S1200000, .i32⟩
  | .hbm, ⟨65, _⟩ => ⟨S1200000x1, .i32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S_, .f32⟩
  | .hbm, ⟨72, _⟩ => ⟨S1200000x1, .f32⟩
  | .hbm, ⟨73, _⟩ => ⟨S_, .f32⟩
  | .hbm, ⟨74, _⟩ => ⟨S100000x1, .f32⟩
  | .hbm, ⟨75, _⟩ => ⟨S1200000x1, .i32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ResultRun.lean ====
/-
  The idealized kernel's run with its result named. @main is four segments: the host operations that build the neighbour
  sums, the reciprocal in-degrees and the stacked weights; the first fused layer (one grid of 50 row tiles); the host
  operations that rebuild the neighbour sums from the first layer's output; the second fused layer. The buffer contents
  at each segment boundary are a fold from the launch memory, and the last boundary's contents hold the result array:
  every weakly fair execution terminates, nothing faulting, with the result buffer at the last boundary's contents and
  the nine argument arrays as launched.
-/
import proofs.«103806_j87282325390064_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch: at the end every unscoped buffer holds the last boundary's contents, so
    the result buffer holds them and each argument, which no segment writes, holds what it was launched with. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.ResultRun

end
-- ==== Proof.GraphSum.lean ====
/-
  The neighbour sum and the reciprocal in-degree as functions. Both programs compute, on the host, for node features `h` and
  an edge list `e` (row 0 the sources, row 1 the destinations): the rows of `h` gathered at the sources (a negative source
  counted from the end), summed into the destinations' rows of a zero array; and the number of edges into each node, the
  same sum of ones. The two programs spell these with the same operations, so they are carried here as ONE function of
  `h` and `e` and never opened: which rows a gather or a scatter touches depends on the edge list's values, and nothing
  in the comparison of the two programs needs to know.
-/
import proofs.«103806_j87282325390064_2_alg».proof.Proof.Gen.KernelIdeal
import proofs.«103806_j87282325390064_2_alg».proof.Proof.Gen.ReferenceIdeal.Read

set_option maxRecDepth 16384

noncomputable section

open Idealize.ShloMosaic Idealize.ShloMosaic.TcCoe Idealize.SL.Sem

namespace Cert.GraphSum

open Cert.ReferenceIdeal Cert.ReferenceIdeal.Gen Cert.ReferenceIdeal.Read

/-- The neighbour sum of `h` along the edges `e`, in the reference's operations. -/
def aggOf (h : FVec Ideal S100000x64 .f32) (e : IVec S2x1200000 32) :
    FVec Ideal S100000x64 .f32 :=
  Host.scatterAdd (F := Ideal) (φ := .f32) scatter_S100000x64_S1200000x1_S1200000x64_1_0_0_1 (val_main_v11 (F := Ideal)) (val_main_v12 (F := Ideal) e)
    (Host.gather gather_S100000x64_S1200000x1_S1200000x64_1_0_n_n_0_1_164 h (val_main_v9 (F := Ideal) e))

/-- The reference's first neighbour sum is that function of the node features. -/
theorem v13_eq (x0 : FVec Ideal S100000x64 .f32) (e : IVec S2x1200000 32) :
    val_main_v13 (F := Ideal) x0 e = aggOf x0 e := rfl

/-- The reference's second neighbour sum is that function of the first layer's output: it slices the edge list and wraps
    the negative sources again, with the same operations. -/
theorem v48_eq (x0 : FVec Ideal S100000x64 .f32) (e : IVec S2x1200000 32)
    (x2 : FVec Ideal S100000x64 .f32) (x3 x4 : FVec Ideal S64x64 .f32)
    (x5 : FVec Ideal S64 .f32) :
    val_main_v48 (F := Ideal) x0 e x2 x3 x4 x5 = aggOf (val_main_v34 (F := Ideal) x0 e x2 x3 x4 x5) e := rfl

/-- The reference counts the in-degrees twice, with the same operations: the second count clamped below by one is the first. -/
theorem v54_eq (e : IVec S2x1200000 32) :
    val_main_v54 (F := Ideal) e = val_main_v19 (F := Ideal) e := rfl

/-- The reciprocal of the in-degree clamped below by one. -/
def invOf (e : IVec S2x1200000 32) : FVec Ideal S100000x1 .f32 :=
  Host.divf (F := Ideal) (φ := .f32) (val_main_v18 (F := Ideal)) (val_main_v19 (F := Ideal) e)

end Cert.GraphSum

namespace Cert.KernelIdeal.GraphSumK

open Cert.KernelIdeal Cert.KernelIdeal.Gen

/-- The neighbour sum in the kernel program's operations, of node features `h`, a source vector `s` and a destination vector
    `d`. -/
def aggK (h : FVec Ideal S100000x64 .f32) (s d : IVec S1200000 32) :
    FVec Ideal S100000x64 .f32 :=
  Host.scatterAdd (F := Ideal) (φ := .f32) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 h
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

/-- On the edge list's two rows it is the reference's. -/
theorem aggK_eq (h : FVec Ideal S100000x64 .f32) (e : IVec S2x1200000 32) :
    aggK h (Cert.ReferenceIdeal.Read.val_main_v1 (F := Ideal) e) (Cert.ReferenceIdeal.Read.val_main_v3 (F := Ideal) e)
      = Cert.GraphSum.aggOf h e := rfl

end Cert.KernelIdeal.GraphSumK

end
-- ==== Proof.Entry0a.lean ====
/-
  What the first fused layer finds in its arrays: the first stretch of host operations run from the launch memory. The
  neighbour sums are the shared neighbour-sum function of the node features and the edge list; the reciprocal column is one
  over the in-degree clamped below by one; the weights are the two first-layer matrices stacked along the rows; the bias is
  the first bias recast as a row.
-/
import proofs.«103806_j87282325390064_2_alg».proof.Proof.Gen.KernelIdeal.Frame
import proofs.«103806_j87282325390064_2_alg».proof.Proof.Gen.ReferenceIdeal.Read
import proofs.«103806_j87282325390064_2_alg».proof.Proof.GraphSum
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (ρ : Dev nD → PrngReg)

set_option maxHeartbeats 8000000 in
/-- The neighbour sums the first layer is handed. -/
theorem v1_agg (c : Dev nD) :
    (V1 m ρ c main_v21 : FVec Ideal S100000x64 .f32) = Cert.ReferenceIdeal.Read.val_main_v13 (F := Ideal) (m ((c : Thread nD τ).loc main_arg0)) (m ((c : Thread nD τ).loc main_arg1)) := by
  show StableHlo.after hostOps0 (W0 m ρ c) (Proc.devRef .tc main_v21) = _
  after_results <;> rfl

set_option maxHeartbeats 8000000 in
/-- The reciprocal in-degrees both layers are handed. -/
theorem v1_inv (c : Dev nD) :
    (V1 m ρ c main_v11 : FVec Ideal S100000x1 .f32) = Cert.GraphSum.invOf (m ((c : Thread nD τ).loc main_arg1)) := by
  show StableHlo.after hostOps0 (W0 m ρ c) (Proc.devRef .tc main_v11) = _
  after_results <;> rfl

set_option maxHeartbeats 8000000 in
/-- The first layer's stacked weights. -/
theorem v1_W (c : Dev nD) :
    (V1 m ρ c main_v22 : FVec Ideal S128x64 .f32) = concatenate S128x64 0 [⟨S64x64, (m ((c : Thread nD τ).loc main_arg3))⟩, ⟨S64x64, (m ((c : Thread nD τ).loc main_arg4))⟩] concatenates_S64x64_S64x64_S128x64_d0 := by
  show StableHlo.after hostOps0 (W0 m ρ c) (Proc.devRef .tc main_v22) = _
  after_results <;> rfl

set_option maxHeartbeats 8000000 in
/-- The first layer's bias as a row. -/
theorem v1_b (c : Dev nD) :
    (V1 m ρ c main_v23 : FVec Ideal S1x64 .f32) = shapeCast S1x64 (m ((c : Thread nD τ).loc main_arg5)) shapeCasts_S64_S1x64 := by
  show StableHlo.after hostOps0 (W0 m ρ c) (Proc.devRef .tc main_v23) = _
  after_results <;> rfl

end Cert.KernelIdeal.Entry

end
-- ==== Proof.Entry0b.lean ====
/-
  What the first stretch of host operations leaves in the buffers it does not write — the node features and the dropout
  uniforms, as launched — and in the two vectors it cuts out of the edge list, the sources and the destinations.
-/
import proofs.«103806_j87282325390064_2_alg».proof.Proof.Gen.KernelIdeal.Frame
import proofs.«103806_j87282325390064_2_alg».proof.Proof.Gen.ReferenceIdeal.Read
import proofs.«103806_j87282325390064_2_alg».proof.Proof.GraphSum
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (ρ : Dev nD → PrngReg)

set_option maxHeartbeats 8000000 in
/-- The node features are as launched. -/
theorem v1_x (c : Dev nD) :
    (V1 m ρ c main_arg0 : FVec Ideal S100000x64 .f32) = (m ((c : Thread nD τ).loc main_arg0)) := by
  show StableHlo.after hostOps0 (W0 m ρ c) (Proc.devRef .tc main_arg0) = _
  after_results <;> rfl

set_option maxHeartbeats 8000000 in
/-- The dropout uniforms are as launched. -/
theorem v1_u (c : Dev nD) :
    (V1 m ρ c main_arg2 : FVec Ideal S100000x64 .f32) = (m ((c : Thread nD τ).loc main_arg2)) := by
  show StableHlo.after hostOps0 (W0 m ρ c) (Proc.devRef .tc main_arg2) = _
  after_results <;> rfl

set_option maxHeartbeats 8000000 in
/-- The source vector: row 0 of the edge list. -/
theorem v1_src (c : Dev nD) :
    (V1 m ρ c main_v1 : IVec S1200000 32) = Cert.ReferenceIdeal.Read.val_main_v1 (F := Ideal) (m ((c : Thread nD τ).loc main_arg1)) := by
  show StableHlo.after hostOps0 (W0 m ρ c) (Proc.devRef .tc main_v1) = _
  after_results <;> rfl

set_option maxHeartbeats 8000000 in
/-- The destination vector: row 1 of the edge list. -/
theorem v1_dst (c : Dev nD) :
    (V1 m ρ c main_v3 : IVec S1200000 32) = Cert.ReferenceIdeal.Read.val_main_v3 (F := Ideal) (m ((c : Thread nD τ).loc main_arg1)) := by
  show StableHlo.after hostOps0 (W0 m ρ c) (Proc.devRef .tc main_v3) = _
  after_results <;> rfl

end Cert.KernelIdeal.Entry

end
-- ==== Proof.Entry0c.lean ====
/-
  The second layer's two weight matrices and its bias are not written by the first stretch of host operations: they are as
  launched.
-/
import proofs.«103806_j87282325390064_2_alg».proof.Proof.Gen.KernelIdeal.Frame
import proofs.«103806_j87282325390064_2_alg».proof.Proof.Gen.ReferenceIdeal.Read
import proofs.«103806_j87282325390064_2_alg».proof.Proof.GraphSum
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (ρ : Dev nD → PrngReg)

set_option maxHeartbeats 8000000 in
/-- The second layer's neighbour weights are as launched. -/
theorem v1_a6 (c : Dev nD) :
    (V1 m ρ c main_arg6 : FVec Ideal S64x64 .f32) = (m ((c : Thread nD τ).loc main_arg6)) := by
  show StableHlo.after hostOps0 (W0 m ρ c) (Proc.devRef .tc main_arg6) = _
  after_results <;> rfl

set_option maxHeartbeats 8000000 in
/-- The second layer's own-feature weights are as launched. -/
theorem v1_a7 (c : Dev nD) :
    (V1 m ρ c main_arg7 : FVec Ideal S64x64 .f32) = (m ((c : Thread nD τ).loc main_arg7)) := by
  show StableHlo.after hostOps0 (W0 m ρ c) (Proc.devRef .tc main_arg7) = _
  after_results <;> rfl

set_option maxHeartbeats 8000000 in
/-- The second layer's bias is as launched. -/
theorem v1_a8 (c : Dev nD) :
    (V1 m ρ c main_arg8 : FVec Ideal S64 .f32) = (m ((c : Thread nD τ).loc main_arg8)) := by
  show StableHlo.after hostOps0 (W0 m ρ c) (Proc.devRef .tc main_arg8) = _
  after_results <;> rfl

end Cert.KernelIdeal.Entry

end
-- ==== Proof.Entry1.lean ====
/-
  What the second fused layer finds in its arrays: the second stretch of host operations run from what the first layer left.
  The neighbour sums are the neighbour-sum operations applied to the first layer's output and the two edge vectors; the
  first layer's output and the reciprocal column are not written by this stretch; the weights are the two second-layer
  matrices stacked; the bias is the second bias as a row.
-/
import proofs.«103806_j87282325390064_2_alg».proof.Proof.Gen.KernelIdeal.Frame
import proofs.«103806_j87282325390064_2_alg».proof.Proof.Gen.ReferenceIdeal.Read
import proofs.«103806_j87282325390064_2_alg».proof.Proof.GraphSum
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (ρ : Dev nD → PrngReg)

set_option maxHeartbeats 8000000 in
/-- The neighbour sums of the first layer's output. -/
theorem v3_agg (c : Dev nD) :
    (V3 m ρ c main_v34 : FVec Ideal S100000x64 .f32) = Cert.KernelIdeal.GraphSumK.aggK (V2 m ρ c main_v24) (V2 m ρ c main_v1) (V2 m ρ c main_v3) := by
  show StableHlo.after hostOps1 (W2 m ρ c) (Proc.devRef .tc main_v34) = _
  after_results <;> rfl

set_option maxHeartbeats 8000000 in
/-- The first layer's output is not written. -/
theorem v3_root (c : Dev nD) :
    (V3 m ρ c main_v24 : FVec Ideal S100000x64 .f32) = V2 m ρ c main_v24 := by
  show StableHlo.after hostOps1 (W2 m ρ c) (Proc.devRef .tc main_v24) = _
  after_results <;> rfl

set_option maxHeartbeats 8000000 in
/-- The reciprocal column is not written. -/
theorem v3_inv (c : Dev nD) :
    (V3 m ρ c main_v11 : FVec Ideal S100000x1 .f32) = V2 m ρ c main_v11 := by
  show StableHlo.after hostOps1 (W2 m ρ c) (Proc.devRef .tc main_v11) = _
  after_results <;> rfl

set_option maxHeartbeats 8000000 in
/-- The second layer's stacked weights. -/
theorem v3_W (c : Dev nD) :
    (V3 m ρ c main_v35 : FVec Ideal S128x64 .f32) = concatenate S128x64 0 [⟨S64x64, V2 m ρ c main_arg6⟩, ⟨S64x64, V2 m ρ c main_arg7⟩] concatenates_S64x64_S64x64_S128x64_d0 := by
  show StableHlo.after hostOps1 (W2 m ρ c) (Proc.devRef .tc main_v35) = _
  after_results <;> rfl

set_option maxHeartbeats 8000000 in
/-- The second layer's bias as a row. -/
theorem v3_b (c : Dev nD) :
    (V3 m ρ c main_v36 : FVec Ideal S1x64 .f32) = shapeCast S1x64 (V2 m ρ c main_arg8) shapeCasts_S64_S1x64 := by
  show StableHlo.after hostOps1 (W2 m ρ c) (Proc.devRef .tc main_v36) = _
  after_results <;> rfl

end Cert.KernelIdeal.Entry

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«103806_j87282325390064_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«103806_j87282325390064_2_alg».proof.Proof.LibPlainDot
import proofs.«103806_j87282325390064_2_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.LibFusedMean.lean ====
/-
  A graph layer that averages neighbour features and mixes them with the node's own, over the extended reals, in its two
  spellings. Rows `agg` hold the SUM of each node's neighbours' features, `s` the number of neighbours, `root` the node's
  own features. The host divides the sums by `max s 1`, multiplies the means by `Wl` and the own features by `Wr` in two
  products, adds them, adds the bias and takes the maximum with zero. A row-tiled kernel is handed the reciprocal
  `1 / max s 1` as a column, multiplies the sums by it, lays means and own features side by side, multiplies the wide
  rows by the stacked matrix `[Wl ; Wr]` in ONE product on the matrix unit (the rounding of the operands to bf16 is the
  identity on the extended reals, a product into the zero accumulator the finite sum over the contracted coordinate), adds
  the bias row and takes the maximum with zero. Entry `(r, j)` of either is
    max (Σ_k (agg(r,k) / max s(r) 1)·Wl(k,j) + Σ_k root(r,k)·Wr(k,j) + b(j)) 0.
  Two facts join them. A sum over `K₁ + K₂` positions is the sum over the first `K₁` plus the sum over the rest, in every
  commutative additive monoid. And `a · (1 / c) = a / c` for `c = max s 1`: the quotient by a NONZERO extended real is the
  product with its inverse, and `max s 1 ≥ 1 > 0` whatever `s` is, an infinity included. So nothing here asks an entry to be
  finite. Also: the dropout factor, the indicator of `u > 1/2` times two in the kernel and divided by one half on the host.
-/
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value
import proofs.«103806_j87282325390064_2_alg».proof.Proof.LibPlainDot
import proofs.«103806_j87282325390064_2_alg».proof.Proof.LibColumn
import proofs.«103806_j87282325390064_2_alg».proof.Proof.LibAffine
import proofs.«103806_j87282325390064_2_alg».proof.Proof.LibSplitLayer

namespace Idealize.ShloMosaic.FusedMean

open Idealize.ShloMosaic.ValueIdx

variable {A K₁ K₂ M : Nat}

/-! ## Three literals and two scalar laws -/

/-- The f32 pattern `0x3F000000` is one half. -/
theorem half_bits : Ideal.ofBits .f32 0x3F000000#32 = ((2⁻¹ : ℝ) : EReal) := by
  simp [Ideal.ofBits, Ideal.ieee, -EReal.coe_mul]; norm_num

/-- The f32 pattern `0x40000000` is two. -/
theorem two_bits : Ideal.ofBits .f32 0x40000000#32 = ((2 : ℝ) : EReal) := by
  simp [Ideal.ofBits, Ideal.ieee, -EReal.coe_mul]; norm_num

/-- A truth value widened to 32 bits and read as a signed integer is the truth value read as an unsigned one: 0 or 1. -/
theorem bit_conv (b : BitVec 1) : FloatOps.sitofp (F := Ideal) .f32 (b.setWidth 32) = FloatOps.uitofp (F := Ideal) .f32 b := by
  have h : ∀ b : BitVec 1, (b.setWidth 32).toInt = (b.toNat : ℤ) := by decide
  show (((b.setWidth 32).toInt : ℝ) : EReal) = ((b.toNat : ℝ) : EReal)
  rw [h b]; push_cast; rfl

/-- The product with the reciprocal of `max s 1` is the quotient by it, for every extended real `s`: `max s 1` is not zero. -/
theorem mean_law (a s : EReal) :
    a * Ideal.div (Ideal.ofBits .f32 0x3F800000#32) (max s (Ideal.ofBits .f32 0x3F800000#32))
      = Ideal.div a (max s (Ideal.ofBits .f32 0x3F800000#32)) := by
  rw [Ideal.ofBits_one_f32]
  have hc : max s (1 : EReal) ≠ 0 :=
    ne_of_gt (lt_of_lt_of_le zero_lt_one (le_max_right _ _))
  rw [Ideal.div, Ideal.div, if_neg hc, if_neg hc, one_mul]

/-- Twice `x` is `x` divided by one half. -/
theorem mask_law (x : EReal) :
    x * Ideal.ofBits .f32 0x40000000#32 = Ideal.div x (Ideal.ofBits .f32 0x3F000000#32) := by
  rw [half_bits, two_bits, Ideal.div_coe (by norm_num : (2⁻¹ : ℝ) ≠ 0)]
  norm_num

/-! ## The kernel's spelling -/

/-- The fused layer: entry `(r, j)` is `max (Σ_k (agg(r,k)·inv(r))·W(k,j) + Σ_k root(r,k)·W(K₁+k,j) + b(0,j)) 0`. -/
noncomputable def fused (agg : FVec Ideal ⟨2, ![A, K₁]⟩ .f32) (root : FVec Ideal ⟨2, ![A, K₂]⟩ .f32)
    (inv : FVec Ideal ⟨2, ![A, 1]⟩ .f32) (W : FVec Ideal ⟨2, ![K₁ + K₂, M]⟩ .f32) (b : FVec Ideal ⟨2, ![1, M]⟩ .f32) :
    FVec Ideal ⟨2, ![A, M]⟩ .f32 :=
  fun i => max (((∑ k : Fin K₁, (agg (ix2 ⟨(i 0).val, idx2_lt0 i⟩ k) * inv (ix2 ⟨(i 0).val, idx2_lt0 i⟩ (0 : Fin 1)))
          * W (ix2 (Fin.castAdd K₂ k) ⟨(i 1).val, idx2_lt1 i⟩))
      + (∑ k : Fin K₂, root (ix2 ⟨(i 0).val, idx2_lt0 i⟩ k) * W (ix2 (Fin.natAdd K₁ k) ⟨(i 1).val, idx2_lt1 i⟩)))
      + b (ix2 (0 : Fin 1) ⟨(i 1).val, idx2_lt1 i⟩)) (Ideal.ofBits .f32 0x00000000#32)

theorem fused_ix2 (agg : FVec Ideal ⟨2, ![A, K₁]⟩ .f32) (root : FVec Ideal ⟨2, ![A, K₂]⟩ .f32)
    (inv : FVec Ideal ⟨2, ![A, 1]⟩ .f32) (W : FVec Ideal ⟨2, ![K₁ + K₂, M]⟩ .f32) (b : FVec Ideal ⟨2, ![1, M]⟩ .f32)
    (p : Fin A) (q : Fin M) :
    fused agg root inv W b (ix2 p q)
      = max (((∑ k : Fin K₁, (agg (ix2 p k) * inv (ix2 p (0 : Fin 1))) * W (ix2 (Fin.castAdd K₂ k) q))
          + (∑ k : Fin K₂, root (ix2 p k) * W (ix2 (Fin.natAdd K₁ k) q))) + b (ix2 (0 : Fin 1) q))
          (Ideal.ofBits .f32 0x00000000#32) := rfl

/-- An entry of the fused layer depends on its own row of the sums, of the own features and of the reciprocals only: row
    `p` of the layer on a block of rows is row `r` of the layer on whole arrays when those rows agree. -/
theorem fused_entry_congr {B : Nat} (Agg : FVec Ideal ⟨2, ![A, K₁]⟩ .f32) (Root : FVec Ideal ⟨2, ![A, K₂]⟩ .f32)
    (Inv : FVec Ideal ⟨2, ![A, 1]⟩ .f32) (agg : FVec Ideal ⟨2, ![B, K₁]⟩ .f32) (root : FVec Ideal ⟨2, ![B, K₂]⟩ .f32)
    (inv : FVec Ideal ⟨2, ![B, 1]⟩ .f32) (W W' : FVec Ideal ⟨2, ![K₁ + K₂, M]⟩ .f32) (b b' : FVec Ideal ⟨2, ![1, M]⟩ .f32)
    (p : Fin B) (r : Fin A) (q : Fin M)
    (h₁ : ∀ k, agg (ix2 p k) = Agg (ix2 r k)) (h₂ : ∀ k, root (ix2 p k) = Root (ix2 r k))
    (h₃ : inv (ix2 p (0 : Fin 1)) = Inv (ix2 r (0 : Fin 1))) (h₄ : W' = W) (h₅ : b' = b) :
    fused agg root inv W' b' (ix2 p q) = fused Agg Root Inv W b (ix2 r q) := by
  rw [fused_ix2, fused_ix2]
  simp only [h₁, h₂, h₃, h₄, h₅]

/-- The kernel body's value at row `p`, column `q` of its block. -/
theorem body_apply (prec : Option ContractPrecision) (x0 : FVec Ideal ⟨2, ![A, K₁]⟩ .f32) (x1 : FVec Ideal ⟨2, ![A, K₂]⟩ .f32)
    (x2 : FVec Ideal ⟨2, ![A, 1]⟩ .f32) (w : FVec Ideal ⟨2, ![K₁ + K₂, M]⟩ .f32) (b : FVec Ideal ⟨2, ![1, M]⟩ .f32)
    (ht : FTy.bf16.bits < FTy.f32.bits) (hb2 : (⟨2, ![A, 1]⟩ : Shape).Broadcasts ⟨2, ![A, K₁]⟩)
    (hcat : Shape.Concatenates [(⟨2, ![A, K₁]⟩ : Shape), ⟨2, ![A, K₂]⟩] ⟨2, ![A, K₁ + K₂]⟩ 1)
    (hb : (⟨2, ![1, M]⟩ : Shape).Broadcasts ⟨2, ![A, M]⟩) (p : Fin A) (q : Fin M) :
    maximumf
        (addf
          (FloatOps.matmul (DotDims.plain A (K₁ + K₂) M) prec
            (truncf .bf16
              (concatenate ⟨2, ![A, K₁ + K₂]⟩ 1
                [⟨⟨2, ![A, K₁]⟩, mulf x0 (broadcastTo ⟨2, ![A, K₁]⟩ x2 hb2)⟩, ⟨⟨2, ![A, K₂]⟩, x1⟩] hcat) ht)
            (truncf .bf16 w ht) (constant ⟨2, ![A, M]⟩ .f32 0x00000000#32))
          (broadcastTo ⟨2, ![A, M]⟩ b hb))
        (broadcast ⟨2, ![A, M]⟩ (Scalar.ofBits (F := Ideal) .f32 0x00000000#32)) (ix2 p q)
      = fused x0 x1 x2 w b (ix2 p q) := by
  rw [fused_ix2]
  refine (maximumf_apply _ _ _).trans (congrArg₂ max ?_ rfl)
  refine (addf_apply _ _ _).trans (congrArg₂ (· + ·) ?_ (broadcastTo_1b_ab_apply b hb p q))
  refine (PlainDot.matmul_apply_ix2 prec _ _ p q).trans ?_
  rw [Fin.sum_univ_add]
  refine congrArg₂ (· + ·) (Finset.sum_congr rfl fun k _ => ?_) (Finset.sum_congr rfl fun k _ => ?_)
  · refine congrArg₂ (· * ·) ?_ rfl
    refine (SplitLayer.concat_cols_left (mulf x0 (broadcastTo ⟨2, ![A, K₁]⟩ x2 hb2)) x1 hcat p k).trans ?_
    exact congrArg₂ (· * ·) rfl (Column.broadcastTo_a1_ab_apply x2 hb2 p k)
  · exact congrArg₂ (· * ·) (SplitLayer.concat_cols_right (mulf x0 (broadcastTo ⟨2, ![A, K₁]⟩ x2 hb2)) x1 hcat p k) rfl

/-! ## The host's spelling -/

/-- Two matrices stacked along the rows, read in the first one's rows. -/
theorem concat_rows_top (Wl : FVec Ideal ⟨2, ![K₁, M]⟩ .f32) (Wr : FVec Ideal ⟨2, ![K₂, M]⟩ .f32)
    (hcat : Shape.Concatenates [(⟨2, ![K₁, M]⟩ : Shape), ⟨2, ![K₂, M]⟩] ⟨2, ![K₁ + K₂, M]⟩ 0) (k : Fin K₁) (q : Fin M) :
    concatenate ⟨2, ![K₁ + K₂, M]⟩ 0 [⟨⟨2, ![K₁, M]⟩, Wl⟩, ⟨⟨2, ![K₂, M]⟩, Wr⟩] hcat (ix2 (Fin.castAdd K₂ k) q) = Wl (ix2 k q) :=
  concatenate_pair_apply_left 0 Wl Wr hcat (ix2 (Fin.castAdd K₂ k) q) rfl (ix2 k q) fun b =>
    match b with
    | ⟨0, _⟩ => rfl
    | ⟨1, _⟩ => rfl

/-- Two matrices stacked along the rows, read in the second one's rows. -/
theorem concat_rows_bottom (Wl : FVec Ideal ⟨2, ![K₁, M]⟩ .f32) (Wr : FVec Ideal ⟨2, ![K₂, M]⟩ .f32)
    (hcat : Shape.Concatenates [(⟨2, ![K₁, M]⟩ : Shape), ⟨2, ![K₂, M]⟩] ⟨2, ![K₁ + K₂, M]⟩ 0) (k : Fin K₂) (q : Fin M) :
    concatenate ⟨2, ![K₁ + K₂, M]⟩ 0 [⟨⟨2, ![K₁, M]⟩, Wl⟩, ⟨⟨2, ![K₂, M]⟩, Wr⟩] hcat (ix2 (Fin.natAdd K₁ k) q) = Wr (ix2 k q) :=
  concatenate_pair_apply_right 0 Wl Wr hcat (ix2 (Fin.natAdd K₁ k) q) rfl rfl (ix2 k q)
    (fun b hb =>
      match b, hb with
      | ⟨0, _⟩, hb => absurd rfl hb
      | ⟨1, _⟩, _ => rfl)
    (show k.val + K₁ = K₁ + k.val from Nat.add_comm _ _)

/-- The host's layer on given means, at `(p, q)`: two products added, the bias lifted twice, the maximum with a broadcast
    zero. -/
theorem host_apply (prec : Option ContractPrecision) (sched : HostSchedule)
    (mean : FVec Ideal ⟨2, ![A, K₁]⟩ .f32) (root : FVec Ideal ⟨2, ![A, K₂]⟩ .f32)
    (Wl : FVec Ideal ⟨2, ![K₁, M]⟩ .f32) (Wr : FVec Ideal ⟨2, ![K₂, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (addf (FloatOps.dotGeneral (DotDims.plain A K₁ M) prec sched mean Wl)
            (FloatOps.dotGeneral (DotDims.plain A K₂ M) prec sched root Wr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = SplitLayer.layer mean root Wl Wr b (ix2 p q) := by
  rw [SplitLayer.layer_ix2]
  refine (maximumf_apply _ _ _).trans (congrArg₂ max ?_ ?_)
  · refine (addf_apply _ _ _).trans (congrArg₂ (· + ·) ?_ (Affine.bias_rows_apply b h1 h2 p q))
    refine (addf_apply _ _ _).trans (congrArg₂ (· + ·) ?_ ?_)
    · exact PlainDot.dotGeneral_apply_ix2 prec sched mean Wl p q
    · exact PlainDot.dotGeneral_apply_ix2 prec sched root Wr p q
  · exact broadcastInDim_apply _ h0 _ (ix2 p q) ix0 fun a => a.elim0

/-! ## The two spellings are one array -/

/-- The fused layer on the sums, the reciprocal column `1 / max s 1`, the stacked weights and the bias as a row is the
    layer on the means `agg / max s 1` with the two weight matrices and the bias. -/
theorem fused_eq_layer (agg : FVec Ideal ⟨2, ![A, K₁]⟩ .f32) (root : FVec Ideal ⟨2, ![A, K₂]⟩ .f32)
    (s : FVec Ideal ⟨2, ![A, 1]⟩ .f32) (Wl : FVec Ideal ⟨2, ![K₁, M]⟩ .f32) (Wr : FVec Ideal ⟨2, ![K₂, M]⟩ .f32)
    (b : FVec Ideal ⟨1, ![M]⟩ .f32)
    (hone : (⟨0, ![]⟩ : Shape).BroadcastsInDim ⟨2, ![A, 1]⟩ ![])
    (hcol : (⟨2, ![A, 1]⟩ : Shape).BroadcastsInDim ⟨2, ![A, K₁]⟩ ![0, 1])
    (hcat : Shape.Concatenates [(⟨2, ![K₁, M]⟩ : Shape), ⟨2, ![K₂, M]⟩] ⟨2, ![K₁ + K₂, M]⟩ 0)
    (hc : (⟨1, ![M]⟩ : Shape).ShapeCasts ⟨2, ![1, M]⟩) :
    fused agg root
        (Host.divf (broadcastInDim ⟨2, ![A, 1]⟩ ![] hone (constant (F := Ideal) ⟨0, ![]⟩ .f32 0x3F800000#32))
          (maximumf s (broadcastInDim ⟨2, ![A, 1]⟩ ![] hone (constant (F := Ideal) ⟨0, ![]⟩ .f32 0x3F800000#32))))
        (concatenate ⟨2, ![K₁ + K₂, M]⟩ 0 [⟨⟨2, ![K₁, M]⟩, Wl⟩, ⟨⟨2, ![K₂, M]⟩, Wr⟩] hcat)
        (shapeCast ⟨2, ![1, M]⟩ b hc)
      = SplitLayer.layer
          (Host.divf agg (broadcastInDim ⟨2, ![A, K₁]⟩ ![0, 1] hcol
            (maximumf s (broadcastInDim ⟨2, ![A, 1]⟩ ![] hone (constant (F := Ideal) ⟨0, ![]⟩ .f32 0x3F800000#32)))))
          root Wl Wr b := by
  funext i
  obtain ⟨p, q, rfl⟩ : ∃ (p : Fin A) (q : Fin M), i = ix2 p q := ⟨i 0, i 1, eq_ix2 i⟩
  rw [fused_ix2, SplitLayer.layer_ix2]
  have hone_at : broadcastInDim ⟨2, ![A, 1]⟩ ![] hone (constant (F := Ideal) ⟨0, ![]⟩ .f32 0x3F800000#32) (ix2 p (0 : Fin 1))
      = Ideal.ofBits .f32 0x3F800000#32 :=
    broadcastInDim_apply _ hone _ (ix2 p (0 : Fin 1)) ix0 fun a => a.elim0
  have hmean : ∀ k : Fin K₁,
      agg (ix2 p k) * Host.divf (broadcastInDim ⟨2, ![A, 1]⟩ ![] hone (constant (F := Ideal) ⟨0, ![]⟩ .f32 0x3F800000#32))
          (maximumf s (broadcastInDim ⟨2, ![A, 1]⟩ ![] hone (constant (F := Ideal) ⟨0, ![]⟩ .f32 0x3F800000#32))) (ix2 p (0 : Fin 1))
        = Host.divf agg (broadcastInDim ⟨2, ![A, K₁]⟩ ![0, 1] hcol
            (maximumf s (broadcastInDim ⟨2, ![A, 1]⟩ ![] hone (constant (F := Ideal) ⟨0, ![]⟩ .f32 0x3F800000#32)))) (ix2 p k) := by
    intro k
    have hcolat : broadcastInDim ⟨2, ![A, K₁]⟩ ![0, 1] hcol
          (maximumf s (broadcastInDim ⟨2, ![A, 1]⟩ ![] hone (constant (F := Ideal) ⟨0, ![]⟩ .f32 0x3F800000#32))) (ix2 p k)
        = maximumf s (broadcastInDim ⟨2, ![A, 1]⟩ ![] hone (constant (F := Ideal) ⟨0, ![]⟩ .f32 0x3F800000#32)) (ix2 p (0 : Fin 1)) :=
      broadcastInDim_apply _ hcol _ (ix2 p k) (ix2 p (0 : Fin 1)) fun a =>
        match a with
        | ⟨0, _⟩ => by
          show p.val = if A = 1 then 0 else p.val
          split
          · have := p.isLt; omega
          · rfl
        | ⟨1, _⟩ => rfl
    rw [hostDivf_apply, hostDivf_apply, hcolat, maximumf_apply, hone_at]
    exact mean_law _ _
  refine congrArg₂ max (congrArg₂ (· + ·) (congrArg₂ (· + ·) (Finset.sum_congr rfl fun k _ => ?_) (Finset.sum_congr rfl fun k _ => ?_)) ?_) rfl
  · exact congrArg₂ (· * ·) (hmean k) (concat_rows_top Wl Wr hcat k q)
  · exact congrArg₂ (· * ·) rfl (concat_rows_bottom Wl Wr hcat k q)
  · exact shapeCast_a_1a_apply b hc 0 q

/-! ## The dropout factor -/

/-- The kernel's factor at an index: the indicator of `u > 1/2`, widened and read as an integer, times two, is the host's:
    the indicator read unsigned, divided by one half. -/
theorem dropout_apply {s : Shape} (h u : FVec Ideal s .f32) (hw : 1 < 32)
    (h0 : (⟨0, ![]⟩ : Shape).BroadcastsInDim s ![]) (i : s.Idx) :
    mulf h (mulf (sitofp .f32 (extui 32 (cmpf .ogt u (broadcast s (Scalar.ofBits (F := Ideal) .f32 0x3F000000#32))) hw))
        (broadcast s (Scalar.ofBits (F := Ideal) .f32 0x40000000#32))) i
      = mulf h (Host.divf (uitofp .f32 (cmpf .ogt u (broadcastInDim s ![] h0 (constant (F := Ideal) ⟨0, ![]⟩ .f32 0x3F000000#32))))
          (broadcastInDim s ![] h0 (constant (F := Ideal) ⟨0, ![]⟩ .f32 0x3F000000#32))) i := by
  have hhalf : broadcastInDim s ![] h0 (constant (F := Ideal) ⟨0, ![]⟩ .f32 0x3F000000#32) i = Ideal.ofBits .f32 0x3F000000#32 :=
    broadcastInDim_apply _ h0 _ i ix0 fun a => a.elim0
  rw [mulf_apply, mulf_apply, mulf_apply, hostDivf_apply, hhalf]
  refine congrArg₂ (· * ·) rfl ?_
  refine Eq.trans ?_ (mask_law _)
  refine congrArg₂ (· * ·) ?_ rfl
  show FloatOps.sitofp (F := Ideal) .f32 ((FloatOps.cmpf .ogt (u i) (Ideal.ofBits .f32 0x3F000000#32)).setWidth 32)
      = FloatOps.uitofp (F := Ideal) .f32 (FloatOps.cmpf .ogt (u i) (broadcastInDim s ![] h0 (constant (F := Ideal) ⟨0, ![]⟩ .f32 0x3F000000#32) i))
  rw [hhalf]
  exact bit_conv _

end Idealize.ShloMosaic.FusedMean
-- ==== Proof.FirstLayer.lean ====
/-
  The first fused layer, from row tiles to the whole array. The grid has 50 points; point t is handed rows
  2000·t … 2000·t + 1999 of the neighbour sums, of the node features, of the reciprocal in-degrees and of the dropout
  uniforms, and the whole stacked weight matrix and bias row; it writes back rows 2000·t … 2000·t + 1999 of the result.
  An entry of the layer depends on its own row only, so what point t writes back is block t of ONE function of the whole
  arrays; the 50 blocks tile the 100000 rows, so the result array ends holding that function.
-/
import proofs.«103806_j87282325390064_2_alg».proof.Proof.Gen.KernelIdeal.Frame
import proofs.«103806_j87282325390064_2_alg».proof.Proof.LibFusedMean
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FirstLayer

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value without its same-shape casts: the fused layer's operations on the loaded blocks, times the
    dropout factor of the loaded uniforms. -/
theorem pay_eq (x0 x1 : FVec Ideal S2000x64 .f32) (x2 : FVec Ideal S2000x1 .f32) (x3 : FVec Ideal S2000x64 .f32)
    (x4 : FVec Ideal S128x64 .f32) (x5 : FVec Ideal S1x64 .f32) :
    k0_pay1 (F := Ideal) x0 x2 x1 x4 x5 x3
      = mulf
          (maximumf
            (addf
              (matmul dot_S2000x128_S128x64_S2000x64_1_0_0_1_n_n none
                (truncf .bf16 (concatenate S2000x128 1 [⟨S2000x64, mulf x0 (broadcastTo S2000x64 x2 broadcasts_S2000x1_S2000x64)⟩, ⟨S2000x64, x1⟩]
                  concatenates_S2000x64_S2000x64_S2000x128_d1) bitsLt_bf16_f32)
                (truncf .bf16 x4 bitsLt_bf16_f32) (constant S2000x64 .f32 0x00000000#32))
              (broadcastTo S2000x64 x5 broadcasts_S1x64_S2000x64))
            (broadcast S2000x64 (Scalar.ofBits (F := Ideal) .f32 0x00000000#32)))
          (mulf (sitofp .f32 (extui 32 (cmpf .ogt x3 (broadcast S2000x64 (Scalar.ofBits (F := Ideal) .f32 0x3F000000#32))) natLt_1_32))
            (broadcast S2000x64 (Scalar.ofBits (F := Ideal) .f32 0x40000000#32))) := by
  unfold k0_pay1
  simp only [shapeCast_self]
  rw [shapeCast_self x0 shapeCasts_S2000x64_S2000x64, shapeCast_self x2 shapeCasts_S2000x1_S2000x1]

/-- The body's stored value at row `p`, column `q` of its block. -/
theorem pay_apply (x0 x1 : FVec Ideal S2000x64 .f32) (x2 : FVec Ideal S2000x1 .f32) (x3 : FVec Ideal S2000x64 .f32)
    (x4 : FVec Ideal S128x64 .f32) (x5 : FVec Ideal S1x64 .f32) (p : Fin 2000) (q : Fin 64) :
    k0_pay1 (F := Ideal) x0 x2 x1 x4 x5 x3 (ix2 p q)
      = FusedMean.fused (A := 2000) (K₁ := 64) (K₂ := 64) (M := 64) x0 x1 x2 x4 x5 (ix2 p q)
        * (FloatOps.sitofp (F := Ideal) .f32 ((FloatOps.cmpf .ogt (x3 (ix2 p q)) (Ideal.ofBits .f32 0x3F000000#32)).setWidth 32)
            * Ideal.ofBits .f32 0x40000000#32) := by
  rw [pay_eq]
  refine (mulf_apply _ _ _).trans (congrArg₂ (· * ·) ?_ rfl)
  exact FusedMean.body_apply (A := 2000) (K₁ := 64) (K₂ := 64) (M := 64) none x0 x1 x2 x4 x5 bitsLt_bf16_f32
    broadcasts_S2000x1_S2000x64 concatenates_S2000x64_S2000x64_S2000x128_d1 broadcasts_S1x64_S2000x64 p q

/-- The first layer on whole arrays: the fused layer times the dropout factor of the uniforms, entry by entry. -/
def first (agg root : FVec Ideal S100000x64 .f32) (inv : FVec Ideal S100000x1 .f32) (u : FVec Ideal S100000x64 .f32)
    (W : FVec Ideal S128x64 .f32) (b : FVec Ideal S1x64 .f32) : FVec Ideal S100000x64 .f32 :=
  mulf (FusedMean.fused (A := 100000) (K₁ := 64) (K₂ := 64) (M := 64) agg root inv W b)
    (mulf (sitofp .f32 (extui 32 (cmpf .ogt u (broadcast S100000x64 (Scalar.ofBits (F := Ideal) .f32 0x3F000000#32))) natLt_1_32))
      (broadcast S100000x64 (Scalar.ofBits (F := Ideal) .f32 0x40000000#32)))

theorem first_ix2 (agg root : FVec Ideal S100000x64 .f32) (inv : FVec Ideal S100000x1 .f32) (u : FVec Ideal S100000x64 .f32)
    (W : FVec Ideal S128x64 .f32) (b : FVec Ideal S1x64 .f32) (r : Fin 100000) (q : Fin 64) :
    first agg root inv u W b (ix2 r q)
      = FusedMean.fused (A := 100000) (K₁ := 64) (K₂ := 64) (M := 64) agg root inv W b (ix2 r q)
        * (FloatOps.sitofp (F := Ideal) .f32 ((FloatOps.cmpf .ogt (u (ix2 r q)) (Ideal.ofBits .f32 0x3F000000#32)).setWidth 32)
            * Ideal.ofBits .f32 0x40000000#32) := rfl

/-- The printed index maps, decided once over the grid: the row-tiled windows sit at block (t, 0), the weights and the bias at
    block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem t_lt (t : Fin cfg0.N) : t.val < 50 := Nat.lt_of_lt_of_eq t.isLt (show cfg0.N = 50 from N_0)

/-- Row `p` of point `t`'s block of the neighbour sums is row `2000·t + p` of the array. -/
theorem blk0 (c : Dev nD) (t : Fin cfg0.N) (p : Fin 2000) (k : Fin 64) (r : Fin 100000) (hr : r.val = t.val * 2000 + p.val) :
    (iblk0 V c 0 t : FVec Ideal S2000x64 .f32) (ix2 p k) = (V c main_v21 : FVec Ideal S100000x64 .f32) (ix2 r k) := by
  obtain ⟨⟨e0, e1⟩, -⟩ := idx_facts t
  unfold iblk0
  rw [View.read_apply]
  show V c main_v21 _ = V c main_v21 _
  congr 1
  funext a
  apply Fin.ext
  match a with
  | ⟨0, _⟩ => show win0_0.index t 0 * 2000 + 1 * p.val = r.val; rw [e0, hr]; omega
  | ⟨1, _⟩ => show win0_0.index t 1 * 64 + 1 * k.val = k.val; rw [e1]; omega

/-- Likewise for the node features, the reciprocal in-degrees and the uniforms. -/
theorem blk1 (c : Dev nD) (t : Fin cfg0.N) (p : Fin 2000) (k : Fin 64) (r : Fin 100000) (hr : r.val = t.val * 2000 + p.val) :
    (iblk0 V c 1 t : FVec Ideal S2000x64 .f32) (ix2 p k) = (V c main_arg0 : FVec Ideal S100000x64 .f32) (ix2 r k) := by
  obtain ⟨e0, e1⟩ := (idx_facts t).2.1
  unfold iblk0
  rw [View.read_apply]
  show V c main_arg0 _ = V c main_arg0 _
  congr 1
  funext a
  apply Fin.ext
  match a with
  | ⟨0, _⟩ => show win0_1.index t 0 * 2000 + 1 * p.val = r.val; rw [e0, hr]; omega
  | ⟨1, _⟩ => show win0_1.index t 1 * 64 + 1 * k.val = k.val; rw [e1]; omega

theorem blk2 (c : Dev nD) (t : Fin cfg0.N) (p : Fin 2000) (k : Fin 1) (r : Fin 100000) (hr : r.val = t.val * 2000 + p.val) :
    (iblk0 V c 2 t : FVec Ideal S2000x1 .f32) (ix2 p k) = (V c main_v11 : FVec Ideal S100000x1 .f32) (ix2 r k) := by
  obtain ⟨e0, e1⟩ := (idx_facts t).2.2.1
  unfold iblk0
  rw [View.read_apply]
  show V c main_v11 _ = V c main_v11 _
  congr 1
  funext a
  apply Fin.ext
  match a with
  | ⟨0, _⟩ => show win0_2.index t 0 * 2000 + 1 * p.val = r.val; rw [e0, hr]; omega
  | ⟨1, _⟩ => show win0_2.index t 1 * 1 + 1 * k.val = k.val; rw [e1]; omega

theorem blk3 (c : Dev nD) (t : Fin cfg0.N) (p : Fin 2000) (k : Fin 64) (r : Fin 100000) (hr : r.val = t.val * 2000 + p.val) :
    (iblk0 V c 3 t : FVec Ideal S2000x64 .f32) (ix2 p k) = (V c main_arg2 : FVec Ideal S100000x64 .f32) (ix2 r k) := by
  obtain ⟨e0, e1⟩ := (idx_facts t).2.2.2.1
  unfold iblk0
  rw [View.read_apply]
  show V c main_arg2 _ = V c main_arg2 _
  congr 1
  funext a
  apply Fin.ext
  match a with
  | ⟨0, _⟩ => show win0_3.index t 0 * 2000 + 1 * p.val = r.val; rw [e0, hr]; omega
  | ⟨1, _⟩ => show win0_3.index t 1 * 64 + 1 * k.val = k.val; rw [e1]; omega

/-- The stacked weights and the bias row are handed whole at every point. -/
theorem blk4 (c : Dev nD) (t : Fin cfg0.N) : (iblk0 V c 4 t : FVec Ideal S128x64 .f32) = (V c main_v22 : FVec Ideal S128x64 .f32) := by
  obtain ⟨e0, e1⟩ := (idx_facts t).2.2.2.2.1
  funext y
  unfold iblk0
  rw [View.read_apply]
  show V c main_v22 _ = V c main_v22 y
  congr 1
  funext a
  apply Fin.ext
  match a with
  | ⟨0, _⟩ => show win0_4.index t 0 * 128 + 1 * (y 0).val = (y 0).val; rw [e0]; omega
  | ⟨1, _⟩ => show win0_4.index t 1 * 64 + 1 * (y 1).val = (y 1).val; rw [e1]; omega

theorem blk5 (c : Dev nD) (t : Fin cfg0.N) : (iblk0 V c 5 t : FVec Ideal S1x64 .f32) = (V c main_v23 : FVec Ideal S1x64 .f32) := by
  obtain ⟨e0, e1⟩ := (idx_facts t).2.2.2.2.2.1
  funext y
  unfold iblk0
  rw [View.read_apply]
  show V c main_v23 _ = V c main_v23 y
  congr 1
  funext a
  apply Fin.ext
  match a with
  | ⟨0, _⟩ => show win0_5.index t 0 * 1 + 1 * (y 0).val = (y 0).val; rw [e0]; omega
  | ⟨1, _⟩ => show win0_5.index t 1 * 64 + 1 * (y 1).val = (y 1).val; rw [e1]; omega

/-- What point `t` writes back is block `t` of the first layer on the whole arrays as the region finds them. -/
theorem flushed_eq (c : Dev nD) (t : Fin cfg0.N) :
    (dat0 V c).flushed 6 t = ((cfg0.win 6).blk t).view.read (Elt Ideal)
      (first (V c main_v21) (V c main_arg0) (V c main_v11) (V c main_arg2) (V c main_v22) (V c main_v23)) := by
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S128x64) hz,
    View.ld_unit_zero (S := S1x64) hz]
  refine funext fun (j : S2000x64.Idx) => ?_
  obtain ⟨p, q, rfl⟩ : ∃ (p : Fin 2000) (q : Fin 64), j = ix2 p q := ⟨j 0, j 1, eq_ix2 j⟩
  have ht := t_lt t
  have hr : t.val * 2000 + p.val < 100000 := by have := p.isLt; omega
  obtain ⟨e0, e1⟩ := (idx_facts t).2.2.2.2.2.2
  have hemb : (((cfg0.win 6).blk t).view.emb (ix2 p q) : S100000x64.Idx) = ix2 ⟨t.val * 2000 + p.val, hr⟩ q := by
    funext a
    apply Fin.ext
    match a with
    | ⟨0, _⟩ => show win0_6.index t 0 * 2000 + 1 * p.val = t.val * 2000 + p.val; rw [e0]; omega
    | ⟨1, _⟩ => show win0_6.index t 1 * 64 + 1 * q.val = q.val; rw [e1]; omega
  show k0_pay1 (F := Ideal) (iblk0 V c 0 t) (iblk0 V c 2 t) (iblk0 V c 1 t) (iblk0 V c 4 t) (iblk0 V c 5 t) (iblk0 V c 3 t) (ix2 p q)
      = first (V c main_v21) (V c main_arg0) (V c main_v11) (V c main_arg2) (V c main_v22) (V c main_v23) (((cfg0.win 6).blk t).view.emb (ix2 p q))
  rw [hemb, first_ix2]
  refine (pay_apply (iblk0 V c 0 t) (iblk0 V c 1 t) (iblk0 V c 2 t) (iblk0 V c 3 t) (iblk0 V c 4 t) (iblk0 V c 5 t) p q).trans ?_
  refine congrArg₂ (· * ·) ?_ ?_
  · exact FusedMean.fused_entry_congr (A := 100000) (K₁ := 64) (K₂ := 64) (M := 64) (B := 2000)
      (V c main_v21) (V c main_arg0) (V c main_v11) (iblk0 V c 0 t) (iblk0 V c 1 t) (iblk0 V c 2 t)
      (V c main_v22) (iblk0 V c 4 t) (V c main_v23) (iblk0 V c 5 t) p ⟨t.val * 2000 + p.val, hr⟩ q
      (fun k => blk0 V c t p k ⟨t.val * 2000 + p.val, hr⟩ rfl) (fun k => blk1 V c t p k ⟨t.val * 2000 + p.val, hr⟩ rfl)
      (blk2 V c t p 0 ⟨t.val * 2000 + p.val, hr⟩ rfl) (blk4 V c t) (blk5 V c t)
  · rw [blk3 V c t p q ⟨t.val * 2000 + p.val, hr⟩ rfl]

/-- An index of the result array is in point `t`'s block iff each coordinate is in the block's range on its axis. -/
theorem mem_blk (t : Fin cfg0.N) (i : S100000x64.Idx) :
    i ∈ ((cfg0.win 6).blk t).view.set
      ↔ ∀ a : Fin 2, win0_6.index t a * S2000x64.size a ≤ (i a).val ∧ (i a).val < win0_6.index t a * S2000x64.size a + S2000x64.size a := by
  show i ∈ ((View.whole main_v24).slice (win0_6.rect t)).set ↔ _
  rw [View.set_slice_whole, Rect.mem_set_unit]
  exact Iff.rfl

/-- The 50 blocks tile the rows: row `r` is in the block of point `r / 2000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨e0, e1⟩ := (idx_facts ⟨(i 0).val / 2000, hlt⟩).2.2.2.2.2.2
  refine ⟨⟨(i 0).val / 2000, hlt⟩, flush0_6 _, ?_⟩
  rw [mem_blk]
  intro a
  match a with
  | ⟨0, _⟩ =>
    show win0_6.index ⟨(i 0).val / 2000, hlt⟩ 0 * 2000 ≤ (i 0).val ∧ (i 0).val < win0_6.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_6.index ⟨(i 0).val / 2000, hlt⟩ 1 * 64 ≤ (i 1).val ∧ (i 1).val < win0_6.index ⟨(i 0).val / 2000, hlt⟩ 1 * 64 + 64
    rw [e1]
    omega

/-- The result array after the region: the first layer on the whole arrays as the region finds them. -/
theorem final (c : Dev nD) : (dat0 V c).arrAt 6 cfg0.N
    = first (V c main_v21) (V c main_arg0) (V c main_v11) (V c main_arg2) (V c main_v22) (V c main_v23) :=
  (dat0 V c).arrAt_eq_of_cover 6 _ (fun t _ => flushed_eq V c t) cover

end Cert.KernelIdeal.FirstLayer

end
-- ==== Proof.SecondLayer.lean ====
/-
  The second fused layer, from row tiles to the whole array: the same grid of 50 points over 2000-row tiles, now of the
  neighbour sums of the first layer's output, of that output itself and of the reciprocal in-degrees, with the second
  stacked weight matrix and bias row handed whole; no dropout. What point t writes back is block t of the fused layer on
  the whole arrays, and the 50 blocks tile the 100000 rows.
-/
import proofs.«103806_j87282325390064_2_alg».proof.Proof.Gen.KernelIdeal.Frame
import proofs.«103806_j87282325390064_2_alg».proof.Proof.LibFusedMean
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SecondLayer

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value without its same-shape casts. -/
theorem pay_eq (x0 x1 : FVec Ideal S2000x64 .f32) (x2 : FVec Ideal S2000x1 .f32)
    (x3 : FVec Ideal S128x64 .f32) (x4 : FVec Ideal S1x64 .f32) :
    k1_pay1 (F := Ideal) x0 x2 x1 x3 x4
      = maximumf
          (addf
            (matmul dot_S2000x128_S128x64_S2000x64_1_0_0_1_n_n none
              (truncf .bf16 (concatenate S2000x128 1 [⟨S2000x64, mulf x0 (broadcastTo S2000x64 x2 broadcasts_S2000x1_S2000x64)⟩, ⟨S2000x64, x1⟩]
                concatenates_S2000x64_S2000x64_S2000x128_d1) bitsLt_bf16_f32)
              (truncf .bf16 x3 bitsLt_bf16_f32) (constant S2000x64 .f32 0x00000000#32))
            (broadcastTo S2000x64 x4 broadcasts_S1x64_S2000x64))
          (broadcast S2000x64 (Scalar.ofBits (F := Ideal) .f32 0x00000000#32)) := by
  unfold k1_pay1
  simp only [shapeCast_self]
  rw [shapeCast_self x0 shapeCasts_S2000x64_S2000x64, shapeCast_self x2 shapeCasts_S2000x1_S2000x1,
    shapeCast_self x1 shapeCasts_S2000x64_S2000x64]

/-- The body's stored value at row `p`, column `q` of its block. -/
theorem pay_apply (x0 x1 : FVec Ideal S2000x64 .f32) (x2 : FVec Ideal S2000x1 .f32)
    (x3 : FVec Ideal S128x64 .f32) (x4 : FVec Ideal S1x64 .f32) (p : Fin 2000) (q : Fin 64) :
    k1_pay1 (F := Ideal) x0 x2 x1 x3 x4 (ix2 p q)
      = FusedMean.fused (A := 2000) (K₁ := 64) (K₂ := 64) (M := 64) x0 x1 x2 x3 x4 (ix2 p q) := by
  rw [pay_eq]
  exact FusedMean.body_apply (A := 2000) (K₁ := 64) (K₂ := 64) (M := 64) none x0 x1 x2 x3 x4 bitsLt_bf16_f32
    broadcasts_S2000x1_S2000x64 concatenates_S2000x64_S2000x64_S2000x128_d1 broadcasts_S1x64_S2000x64 p q

/-- The second layer on whole arrays: the fused layer. -/
def second (agg root : FVec Ideal S100000x64 .f32) (inv : FVec Ideal S100000x1 .f32)
    (W : FVec Ideal S128x64 .f32) (b : FVec Ideal S1x64 .f32) : FVec Ideal S100000x64 .f32 :=
  FusedMean.fused (A := 100000) (K₁ := 64) (K₂ := 64) (M := 64) agg root inv W b

/-- The printed index maps, decided once over the grid. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem t_lt (t : Fin cfg1.N) : t.val < 50 := Nat.lt_of_lt_of_eq t.isLt (show cfg1.N = 50 from N_1)

/-- Row `p` of point `t`'s block of each row-tiled array is row `2000·t + p` of the array. -/
theorem blk0 (c : Dev nD) (t : Fin cfg1.N) (p : Fin 2000) (k : Fin 64) (r : Fin 100000) (hr : r.val = t.val * 2000 + p.val) :
    (iblk1 V c 0 t : FVec Ideal S2000x64 .f32) (ix2 p k) = (V c main_v34 : FVec Ideal S100000x64 .f32) (ix2 r k) := by
  obtain ⟨e0, e1⟩ := (idx_facts t).1
  unfold iblk1
  rw [View.read_apply]
  show V c main_v34 _ = V c main_v34 _
  congr 1
  funext a
  apply Fin.ext
  match a with
  | ⟨0, _⟩ => show win1_0.index t 0 * 2000 + 1 * p.val = r.val; rw [e0, hr]; omega
  | ⟨1, _⟩ => show win1_0.index t 1 * 64 + 1 * k.val = k.val; rw [e1]; omega

theorem blk1 (c : Dev nD) (t : Fin cfg1.N) (p : Fin 2000) (k : Fin 64) (r : Fin 100000) (hr : r.val = t.val * 2000 + p.val) :
    (iblk1 V c 1 t : FVec Ideal S2000x64 .f32) (ix2 p k) = (V c main_v24 : FVec Ideal S100000x64 .f32) (ix2 r k) := by
  obtain ⟨e0, e1⟩ := (idx_facts t).2.1
  unfold iblk1
  rw [View.read_apply]
  show V c main_v24 _ = V c main_v24 _
  congr 1
  funext a
  apply Fin.ext
  match a with
  | ⟨0, _⟩ => show win1_1.index t 0 * 2000 + 1 * p.val = r.val; rw [e0, hr]; omega
  | ⟨1, _⟩ => show win1_1.index t 1 * 64 + 1 * k.val = k.val; rw [e1]; omega

theorem blk2 (c : Dev nD) (t : Fin cfg1.N) (p : Fin 2000) (k : Fin 1) (r : Fin 100000) (hr : r.val = t.val * 2000 + p.val) :
    (iblk1 V c 2 t : FVec Ideal S2000x1 .f32) (ix2 p k) = (V c main_v11 : FVec Ideal S100000x1 .f32) (ix2 r k) := by
  obtain ⟨e0, e1⟩ := (idx_facts t).2.2.1
  unfold iblk1
  rw [View.read_apply]
  show V c main_v11 _ = V c main_v11 _
  congr 1
  funext a
  apply Fin.ext
  match a with
  | ⟨0, _⟩ => show win1_2.index t 0 * 2000 + 1 * p.val = r.val; rw [e0, hr]; omega
  | ⟨1, _⟩ => show win1_2.index t 1 * 1 + 1 * k.val = k.val; rw [e1]; omega

/-- The stacked weights and the bias row are handed whole at every point. -/
theorem blk3 (c : Dev nD) (t : Fin cfg1.N) : (iblk1 V c 3 t : FVec Ideal S128x64 .f32) = (V c main_v35 : FVec Ideal S128x64 .f32) := by
  obtain ⟨e0, e1⟩ := (idx_facts t).2.2.2.1
  funext y
  unfold iblk1
  rw [View.read_apply]
  show V c main_v35 _ = V c main_v35 y
  congr 1
  funext a
  apply Fin.ext
  match a with
  | ⟨0, _⟩ => show win1_3.index t 0 * 128 + 1 * (y 0).val = (y 0).val; rw [e0]; omega
  | ⟨1, _⟩ => show win1_3.index t 1 * 64 + 1 * (y 1).val = (y 1).val; rw [e1]; omega

theorem blk4 (c : Dev nD) (t : Fin cfg1.N) : (iblk1 V c 4 t : FVec Ideal S1x64 .f32) = (V c main_v36 : FVec Ideal S1x64 .f32) := by
  obtain ⟨e0, e1⟩ := (idx_facts t).2.2.2.2.1
  funext y
  unfold iblk1
  rw [View.read_apply]
  show V c main_v36 _ = V c main_v36 y
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-- What point `t` writes back is block `t` of the second layer on the whole arrays as the region finds them. -/
theorem flushed_eq (c : Dev nD) (t : Fin cfg1.N) :
    (dat1 V c).flushed 5 t = ((cfg1.win 5).blk t).view.read (Elt Ideal)
      (second (V c main_v34) (V c main_v24) (V c main_v11) (V c main_v35) (V c main_v36)) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz, View.ld_unit_zero (S := S128x64) hz,
    View.ld_unit_zero (S := S1x64) hz]
  refine funext fun (j : S2000x64.Idx) => ?_
  obtain ⟨p, q, rfl⟩ : ∃ (p : Fin 2000) (q : Fin 64), j = ix2 p q := ⟨j 0, j 1, eq_ix2 j⟩
  have ht := t_lt t
  have hr : t.val * 2000 + p.val < 100000 := by have := p.isLt; omega
  obtain ⟨e0, e1⟩ := (idx_facts t).2.2.2.2.2
  have hemb : (((cfg1.win 5).blk t).view.emb (ix2 p q) : S100000x64.Idx) = ix2 ⟨t.val * 2000 + p.val, hr⟩ q := by
    funext a
    apply Fin.ext
    match a with
    | ⟨0, _⟩ => show win1_5.index t 0 * 2000 + 1 * p.val = t.val * 2000 + p.val; rw [e0]; omega
    | ⟨1, _⟩ => show win1_5.index t 1 * 64 + 1 * q.val = q.val; rw [e1]; omega
  show k1_pay1 (F := Ideal) (iblk1 V c 0 t) (iblk1 V c 2 t) (iblk1 V c 1 t) (iblk1 V c 3 t) (iblk1 V c 4 t) (ix2 p q)
      = second (V c main_v34) (V c main_v24) (V c main_v11) (V c main_v35) (V c main_v36) (((cfg1.win 5).blk t).view.emb (ix2 p q))
  rw [hemb]
  refine (pay_apply (iblk1 V c 0 t) (iblk1 V c 1 t) (iblk1 V c 2 t) (iblk1 V c 3 t) (iblk1 V c 4 t) p q).trans ?_
  exact FusedMean.fused_entry_congr (A := 100000) (K₁ := 64) (K₂ := 64) (M := 64) (B := 2000)
      (V c main_v34) (V c main_v24) (V c main_v11) (iblk1 V c 0 t) (iblk1 V c 1 t) (iblk1 V c 2 t)
      (V c main_v35) (iblk1 V c 3 t) (V c main_v36) (iblk1 V c 4 t) p ⟨t.val * 2000 + p.val, hr⟩ q
      (fun k => blk0 V c t p k ⟨t.val * 2000 + p.val, hr⟩ rfl) (fun k => blk1 V c t p k ⟨t.val * 2000 + p.val, hr⟩ rfl)
      (blk2 V c t p 0 ⟨t.val * 2000 + p.val, hr⟩ rfl) (blk3 V c t) (blk4 V c t)

/-- An index of the result array is in point `t`'s block iff each coordinate is in the block's range on its axis. -/
theorem mem_blk (t : Fin cfg1.N) (i : S100000x64.Idx) :
    i ∈ ((cfg1.win 5).blk t).view.set
      ↔ ∀ a : Fin 2, win1_5.index t a * S2000x64.size a ≤ (i a).val ∧ (i a).val < win1_5.index t a * S2000x64.size a + S2000x64.size a := by
  show i ∈ ((View.whole main_v37).slice (win1_5.rect t)).set ↔ _
  rw [View.set_slice_whole, Rect.mem_set_unit]
  exact Iff.rfl

/-- The 50 blocks tile the rows: row `r` is in the block of point `r / 2000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨e0, e1⟩ := (idx_facts ⟨(i 0).val / 2000, hlt⟩).2.2.2.2.2
  refine ⟨⟨(i 0).val / 2000, hlt⟩, flush1_5 _, ?_⟩
  rw [mem_blk]
  intro a
  match a with
  | ⟨0, _⟩ =>
    show win1_5.index ⟨(i 0).val / 2000, hlt⟩ 0 * 2000 ≤ (i 0).val ∧ (i 0).val < win1_5.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ 1 * 64 ≤ (i 1).val ∧ (i 1).val < win1_5.index ⟨(i 0).val / 2000, hlt⟩ 1 * 64 + 64
    rw [e1]
    omega

/-- The result array after the region: the second layer on the whole arrays as the region finds them. -/
theorem final (c : Dev nD) : (dat1 V c).arrAt 5 cfg1.N
    = second (V c main_v34) (V c main_v24) (V c main_v11) (V c main_v35) (V c main_v36) :=
  (dat1 V c).arrAt_eq_of_cover 5 _ (fun t _ => flushed_eq V c t) cover

end Cert.KernelIdeal.SecondLayer

end
-- ==== Proof.Bridge.lean ====
/-
  The two programs' layers are one function. The kernel's first layer — the fused layer on the neighbour sums, the node
  features and the reciprocal in-degrees, with the stacked weights and the bias row, times the dropout factor — is, as a whole
  array, the reference's first layer: the means `sums / max degree 1` times the neighbour weights plus the node features
  times the own weights plus the bias, rectified, times the indicator of `u > 1/2` divided by one half. The same holds for
  the second layer, on the first layer's output and its neighbour sums, without the dropout factor. The entry-level laws are
  the fused layer's: a sum over 128 positions split in two, the product with the reciprocal of `max s 1` as the quotient
  by it, twice as the quotient by one half.
-/
import proofs.«103806_j87282325390064_2_alg».proof.Proof.Gen.ReferenceIdeal.Read
import proofs.«103806_j87282325390064_2_alg».proof.Proof.GraphSum
import proofs.«103806_j87282325390064_2_alg».proof.Proof.FirstLayer
import proofs.«103806_j87282325390064_2_alg».proof.Proof.SecondLayer
import proofs.«103806_j87282325390064_2_alg».proof.Proof.LibFusedMean

set_option maxRecDepth 16384

noncomputable section

open Idealize.ShloMosaic Idealize.ShloMosaic.TcCoe Idealize.SL.Sem Idealize.ShloMosaic.ValueIdx

namespace Cert.Bridge

open Cert.ReferenceIdeal Cert.ReferenceIdeal.Gen Cert.ReferenceIdeal.Read Cert.GraphSum

/-- The fused layer on the sums `agg`, the own features `root` and the reciprocal in-degrees, with stacked weights and the bias
    as a row, is the reference's layer before its rectifier's name is unfolded: at `(r, q)`,
    `max (Σ_k (agg/max s 1)(r,k)·Wl(k,q) + Σ_k root(r,k)·Wr(k,q) + b(q)) 0`. -/
theorem fused_entry (agg root : FVec Ideal S100000x64 .f32) (e : IVec S2x1200000 32)
    (Wl Wr : FVec Ideal S64x64 .f32) (b : FVec Ideal S64 .f32)
    (hcat : Shape.Concatenates [(⟨2, ![64, 64]⟩ : Shape), ⟨2, ![64, 64]⟩] ⟨2, ![64 + 64, 64]⟩ 0)
    (hc : (⟨1, ![64]⟩ : Shape).ShapeCasts ⟨2, ![1, 64]⟩) (r : Fin 100000) (q : Fin 64) :
    FusedMean.fused (A := 100000) (K₁ := 64) (K₂ := 64) (M := 64) agg root (invOf e)
        (concatenate ⟨2, ![64 + 64, 64]⟩ 0 [⟨⟨2, ![64, 64]⟩, Wl⟩, ⟨⟨2, ![64, 64]⟩, Wr⟩] hcat) (shapeCast ⟨2, ![1, 64]⟩ b hc) (ix2 r q)
      = maximumf
          (addf
            (addf (Host.dotGeneral (F := Ideal) dot_S100000x64_S64x64_S100000x64_1_0_0_1_n_n none
                (Host.divf (F := Ideal) (φ := .f32) agg (val_main_v20 (F := Ideal) e)) Wl)
              (Host.dotGeneral (F := Ideal) dot_S100000x64_S64x64_S100000x64_1_0_0_1_n_n none root Wr))
            (val_main_v26 (F := Ideal) b))
          (val_main_call0_v0 (F := Ideal)) (ix2 r q) :=
  (congrFun (FusedMean.fused_eq_layer (A := 100000) (K₁ := 64) (K₂ := 64) (M := 64) agg root (val_main_v17 (F := Ideal) e) Wl Wr b
      bcast_S_S100000x1 bcast_S100000x1_S100000x64_0_1 hcat hc) (ix2 r q)).trans
    (FusedMean.host_apply (A := 100000) (K₁ := 64) (K₂ := 64) (M := 64) none .single
      (Host.divf (F := Ideal) (φ := .f32) agg (val_main_v20 (F := Ideal) e)) root Wl Wr b
      bcast_S64_S1x64_1 bcast_S1x64_S100000x64_0_1 bcast_S_S100000x64 r q).symm

/-- The kernel's first layer is the reference's, as whole arrays. -/
theorem first_eq (x0 : FVec Ideal S100000x64 .f32) (e : IVec S2x1200000 32)
    (x2 : FVec Ideal S100000x64 .f32) (x3 x4 : FVec Ideal S64x64 .f32)
    (x5 : FVec Ideal S64 .f32)
    (hcat : Shape.Concatenates [(⟨2, ![64, 64]⟩ : Shape), ⟨2, ![64, 64]⟩] ⟨2, ![64 + 64, 64]⟩ 0)
    (hc : (⟨1, ![64]⟩ : Shape).ShapeCasts ⟨2, ![1, 64]⟩) :
    Cert.KernelIdeal.FirstLayer.first (val_main_v13 (F := Ideal) x0 e) x0 (invOf e) x2
        (concatenate ⟨2, ![64 + 64, 64]⟩ 0 [⟨⟨2, ![64, 64]⟩, x3⟩, ⟨⟨2, ![64, 64]⟩, x4⟩] hcat) (shapeCast ⟨2, ![1, 64]⟩ x5 hc)
      = val_main_v34 (F := Ideal) x0 e x2 x3 x4 x5 := by
  funext i
  obtain ⟨r, q, rfl⟩ : ∃ (r : Fin 100000) (q : Fin 64), i = ix2 r q := ⟨i 0, i 1, eq_ix2 i⟩
  unfold Cert.KernelIdeal.FirstLayer.first
  refine (FusedMean.dropout_apply _ x2 _ bcast_S_S100000x64 (ix2 r q)).trans ?_
  refine (mulf_apply _ _ _).trans ?_
  refine Eq.trans ?_ (mulf_apply (val_main_v28 (F := Ideal) x0 e x3 x4 x5) (val_main_v33 (F := Ideal) x2) (ix2 r q)).symm
  exact congrArg₂ (· * ·) (fused_entry (val_main_v13 (F := Ideal) x0 e) x0 e x3 x4 x5 hcat hc r q) rfl

/-- The kernel's second layer, on the first layer's output and its neighbour sums, is the reference's result. -/
theorem second_eq (x0 : FVec Ideal S100000x64 .f32) (e : IVec S2x1200000 32)
    (x2 : FVec Ideal S100000x64 .f32) (x3 x4 : FVec Ideal S64x64 .f32)
    (x5 : FVec Ideal S64 .f32) (x6 x7 : FVec Ideal S64x64 .f32)
    (x8 : FVec Ideal S64 .f32)
    (hcat : Shape.Concatenates [(⟨2, ![64, 64]⟩ : Shape), ⟨2, ![64, 64]⟩] ⟨2, ![64 + 64, 64]⟩ 0)
    (hc : (⟨1, ![64]⟩ : Shape).ShapeCasts ⟨2, ![1, 64]⟩) :
    Cert.KernelIdeal.SecondLayer.second (aggOf (val_main_v34 (F := Ideal) x0 e x2 x3 x4 x5) e) (val_main_v34 (F := Ideal) x0 e x2 x3 x4 x5)
        (invOf e) (concatenate ⟨2, ![64 + 64, 64]⟩ 0 [⟨⟨2, ![64, 64]⟩, x6⟩, ⟨⟨2, ![64, 64]⟩, x7⟩] hcat) (shapeCast ⟨2, ![1, 64]⟩ x8 hc)
      = val_main_v63 (F := Ideal) x0 e x2 x3 x4 x5 x6 x7 x8 := by
  funext i
  obtain ⟨r, q, rfl⟩ : ∃ (r : Fin 100000) (q : Fin 64), i = ix2 r q := ⟨i 0, i 1, eq_ix2 i⟩
  unfold Cert.KernelIdeal.SecondLayer.second
  exact fused_entry (aggOf (val_main_v34 (F := Ideal) x0 e x2 x3 x4 x5) e) (val_main_v34 (F := Ideal) x0 e x2 x3 x4 x5) e x6 x7 x8 hcat hc r q

end Cert.Bridge

namespace Cert.KernelIdeal.Result

open Cert.KernelIdeal Cert.KernelIdeal.Gen

/-- The first layer's output as a function of the launch arrays: node features `x0`, edge list `e`, dropout uniforms `x2`,
    the first layer's two weight matrices and bias. -/
def hidden (x0 : FVec Ideal S100000x64 .f32) (e : IVec S2x1200000 32) (x2 : FVec Ideal S100000x64 .f32)
    (x3 x4 : FVec Ideal S64x64 .f32) (x5 : FVec Ideal S64 .f32) : FVec Ideal S100000x64 .f32 :=
  FirstLayer.first (Cert.ReferenceIdeal.Read.val_main_v13 (F := Ideal) x0 e) x0 (Cert.GraphSum.invOf e) x2
    (concatenate S128x64 0 [⟨S64x64, x3⟩, ⟨S64x64, x4⟩] concatenates_S64x64_S64x64_S128x64_d0)
    (shapeCast S1x64 x5 shapeCasts_S64_S1x64)

/-- The kernel program's result as a function of the launch arrays: the second layer on the neighbour sums of the first
    layer's output, that output, the reciprocal in-degrees, the second layer's stacked weights and bias row. -/
def result (x0 : FVec Ideal S100000x64 .f32) (e : IVec S2x1200000 32) (x2 : FVec Ideal S100000x64 .f32)
    (x3 x4 : FVec Ideal S64x64 .f32) (x5 : FVec Ideal S64 .f32) (x6 x7 : FVec Ideal S64x64 .f32) (x8 : FVec Ideal S64 .f32) :
    FVec Ideal S100000x64 .f32 :=
  SecondLayer.second
    (GraphSumK.aggK (hidden x0 e x2 x3 x4 x5) (Cert.ReferenceIdeal.Read.val_main_v1 (F := Ideal) e) (Cert.ReferenceIdeal.Read.val_main_v3 (F := Ideal) e))
    (hidden x0 e x2 x3 x4 x5) (Cert.GraphSum.invOf e)
    (concatenate S128x64 0 [⟨S64x64, x6⟩, ⟨S64x64, x7⟩] concatenates_S64x64_S64x64_S128x64_d0)
    (shapeCast S1x64 x8 shapeCasts_S64_S1x64)

/-- The first layer's output is the reference's. -/
theorem hidden_eq (x0 : FVec Ideal S100000x64 .f32) (e : IVec S2x1200000 32) (x2 : FVec Ideal S100000x64 .f32)
    (x3 x4 : FVec Ideal S64x64 .f32) (x5 : FVec Ideal S64 .f32) :
    hidden x0 e x2 x3 x4 x5 = Cert.ReferenceIdeal.Read.val_main_v34 (F := Ideal) x0 e x2 x3 x4 x5 :=
  Cert.Bridge.first_eq x0 e x2 x3 x4 x5 concatenates_S64x64_S64x64_S128x64_d0 shapeCasts_S64_S1x64

/-- The kernel program's result is the reference's, as functions of the launch arrays. -/
theorem result_eq (x0 : FVec Ideal S100000x64 .f32) (e : IVec S2x1200000 32) (x2 : FVec Ideal S100000x64 .f32)
    (x3 x4 : FVec Ideal S64x64 .f32) (x5 : FVec Ideal S64 .f32) (x6 x7 : FVec Ideal S64x64 .f32) (x8 : FVec Ideal S64 .f32) :
    result x0 e x2 x3 x4 x5 x6 x7 x8 = Cert.ReferenceIdeal.Read.val_main_v63 (F := Ideal) x0 e x2 x3 x4 x5 x6 x7 x8 := by
  unfold result
  rw [GraphSumK.aggK_eq, hidden_eq]
  exact Cert.Bridge.second_eq x0 e x2 x3 x4 x5 x6 x7 x8 concatenates_S64x64_S64x64_S128x64_d0 shapeCasts_S64_S1x64

end Cert.KernelIdeal.Result

end
-- ==== Proof.KernelValue.lean ====
/-
  The idealized kernel's result array as a function of the launch arrays. The last boundary's contents at the result buffer are
  what the second fused layer's write-backs leave: the second layer on the arrays that region finds. Those are what the second
  stretch of host operations computes from what the first layer left: the neighbour sums of the first layer's output along the
  edge list, that output, the reciprocal in-degrees, the second layer's stacked weights and bias row. The first layer's output is
  in turn the first layer on the arrays the first stretch of host operations computes from the launch memory. The reciprocal
  in-degrees are an input window of the first region, which leaves them as it found them.
-/
import proofs.«103806_j87282325390064_2_alg».proof.Proof.ResultRun
import proofs.«103806_j87282325390064_2_alg».proof.Proof.Entry0a
import proofs.«103806_j87282325390064_2_alg».proof.Proof.Entry0b
import proofs.«103806_j87282325390064_2_alg».proof.Proof.Entry0c
import proofs.«103806_j87282325390064_2_alg».proof.Proof.Entry1
import proofs.«103806_j87282325390064_2_alg».proof.Proof.Bridge

set_option maxRecDepth 16384

noncomputable section

open Idealize.ShloMosaic Idealize.ShloMosaic.TcCoe Idealize.SL.Sem
open Idealize.ShloMosaic.Pipeline (Dat)

namespace Cert.KernelIdeal.ResultValue

open Cert.KernelIdeal Cert.KernelIdeal.Gen Cert.KernelIdeal.Entry Cert.KernelIdeal.Result

variable (m : (ℓ : Loc nD τ sig) → Buf (Elt Ideal) ℓ) (ρ : Dev nD → PrngReg)

/-- What the first region leaves in its result array: the first layer's output. -/
theorem v2_hidden (c : Dev nD) : (V2 m ρ c main_v24 : FVec Ideal S100000x64 .f32) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((FirstLayer.final (V1 m ρ) c).trans ?_)
  rw [v1_agg m ρ c, v1_x m ρ c, v1_inv m ρ c, v1_u m ρ c, v1_W m ρ c, v1_b m ρ c]
  rfl

/-- The reciprocal in-degrees are an input of the first region: left as found. -/
theorem v2_inv (c : Dev nD) : (V2 m ρ c main_v11 : FVec Ideal S100000x1 .f32) = Cert.GraphSum.invOf (m ((c : Thread nD τ).loc main_arg1)) :=
  ((W2_arr m ρ c 2).trans (((dat0 (V1 m ρ) c).arrAt_in 2 rfl _).trans (A_eq0 (V1 m ρ) c 2))).trans (v1_inv m ρ c)

/-- The buffers the first region does not touch are as the first stretch of host operations left them. -/
theorem v2_src (c : Dev nD) : (V2 m ρ c main_v1 : IVec S1200000 32) = Cert.ReferenceIdeal.Read.val_main_v1 (F := Ideal) (m ((c : Thread nD τ).loc main_arg1)) :=
  (W2_of_ne m ρ c main_v1 (by decide)).trans (v1_src m ρ c)
theorem v2_dst (c : Dev nD) : (V2 m ρ c main_v3 : IVec S1200000 32) = Cert.ReferenceIdeal.Read.val_main_v3 (F := Ideal) (m ((c : Thread nD τ).loc main_arg1)) :=
  (W2_of_ne m ρ c main_v3 (by decide)).trans (v1_dst m ρ c)
theorem v2_a6 (c : Dev nD) : (V2 m ρ c main_arg6 : FVec Ideal S64x64 .f32) = (m ((c : Thread nD τ).loc main_arg6)) :=
  (W2_of_ne m ρ c main_arg6 (by decide)).trans (v1_a6 m ρ c)
theorem v2_a7 (c : Dev nD) : (V2 m ρ c main_arg7 : FVec Ideal S64x64 .f32) = (m ((c : Thread nD τ).loc main_arg7)) :=
  (W2_of_ne m ρ c main_arg7 (by decide)).trans (v1_a7 m ρ c)
theorem v2_a8 (c : Dev nD) : (V2 m ρ c main_arg8 : FVec Ideal S64 .f32) = (m ((c : Thread nD τ).loc main_arg8)) :=
  (W2_of_ne m ρ c main_arg8 (by decide)).trans (v1_a8 m ρ c)

/-- The result buffer at the last boundary: the kernel program's result function of the launch arrays. -/
theorem kernel_value (c : Dev nD) :
    (W4 m ρ c (Proc.devRef .tc main_v37) : FVec Ideal S100000x64 .f32) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((SecondLayer.final (V3 m ρ) c).trans ?_)
  rw [v3_agg m ρ c, v3_root m ρ c, v3_inv m ρ c, v3_W m ρ c, v3_b m ρ c, v2_hidden m ρ c, v2_inv m ρ c, v2_src m ρ c,
    v2_dst m ρ c, v2_a6 m ρ c, v2_a7 m ρ c, v2_a8 m ρ c]
  rfl

end Cert.KernelIdeal.ResultValue

end
-- ==== Proof.lean ====
/-
  Two layers of a graph network that averages each node's neighbours — mean of the neighbours' features times one weight matrix,
  plus the node's own features times another, plus a bias, rectified; dropout by given uniforms after the first layer — as a
  kernel program and as its reference, equal over the extended reals.

  Both programs build, on the host, the sum of the neighbours' features (a gather along the edge list's sources and a
  scatter-add into its destinations) and the in-degrees (the same scatter-add of ones). The reference divides the sums by the
  in-degree clamped below by one, multiplies by the two weight matrices in two products and adds. The kernel program is handed
  the reciprocal of the clamped in-degree, and in each of two row-tiled regions multiplies the sums by it, lays the means and
  the node's own features side by side and multiplies the 128-wide rows by the two matrices stacked, in one product.

  At the ideal instance the two are one function of the arguments, index by index. A sum over 128 positions is the sum over the
  first 64 plus the sum over the last 64, in every commutative additive monoid. The product with the reciprocal of `max s 1` is
  the quotient by `max s 1`, because that is at least one and so not zero, whatever extended real `s` is; the dropout factor,
  the indicator of `u > 1/2` times two, is the indicator divided by one half. None of these laws needs an entry to be finite, so
  the precondition is not opened. The gather and the scatter-add are the same operations on both sides and are carried as one
  function of the features and the edge list: which rows they touch depends on the edge list's values, and the comparison never
  needs to know.

  The three frames: the two kernel programs' are the generated ones; the reference's is its generated run with the result
  dropped. The idealization rewrote nothing, so there is nothing to preserve. The algebraic claim: the kernel program's run ends
  with the result buffer at the last segment boundary's contents (ResultRun), those are the result function of the launch arrays
  (KernelValue, over FirstLayer and SecondLayer and the host stretches' values), and that function is the reference's last stage
  (Bridge, over the layer's two spellings in LibFusedMean).
-/
import proofs.«103806_j87282325390064_2_alg».proof.Defs
import proofs.«103806_j87282325390064_2_alg».proof.Proof.Gen.Kernel
import proofs.«103806_j87282325390064_2_alg».proof.Proof.Gen.Kernel.Skeleton
import proofs.«103806_j87282325390064_2_alg».proof.Proof.Gen.Kernel.Launch
import proofs.«103806_j87282325390064_2_alg».proof.Proof.Gen.Kernel.Points
import proofs.«103806_j87282325390064_2_alg».proof.Proof.Gen.Kernel.Frame
import proofs.«103806_j87282325390064_2_alg».proof.Proof.Gen.KernelIdeal
import proofs.«103806_j87282325390064_2_alg».proof.Proof.Gen.KernelIdeal.Skeleton
import proofs.«103806_j87282325390064_2_alg».proof.Proof.Gen.KernelIdeal.Launch
import proofs.«103806_j87282325390064_2_alg».proof.Proof.Gen.KernelIdeal.Points
import proofs.«103806_j87282325390064_2_alg».proof.Proof.Gen.KernelIdeal.Frame
import proofs.«103806_j87282325390064_2_alg».proof.Proof.Gen.ReferenceIdeal
import proofs.«103806_j87282325390064_2_alg».proof.Proof.Gen.Pre_finite_inputs
import proofs.«103806_j87282325390064_2_alg».proof.Proof.Gen.ReferenceIdeal.Run
import proofs.«103806_j87282325390064_2_alg».proof.Proof.Gen.ReferenceIdeal.Read
import proofs.«103806_j87282325390064_2_alg».proof.Proof.ResultRun
import proofs.«103806_j87282325390064_2_alg».proof.Proof.KernelValue
import proofs.«103806_j87282325390064_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result function of the (agreeing) launch arrays in their result buffers. -/
theorem algebraic : Cert.algebraic_KernelIdeal_ReferenceIdeal := by
  intro m ρ m' ρ' _ hagree
  refine ⟨fun c => Cert.KernelIdeal.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.ResultValue.kernel_value m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.KernelIdeal.Result.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
